-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S64x768 : Shape := ⟨2, ![64, 768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S4x4096x768 .f32) (main_arg1 : FVec F S64x768 .f32) (main_arg2 : FVec F S64x768 .f32) (main_arg3 : FVec F S64x768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S4x4096x768 : Shape := ⟨3, ![4, 4096, 768]⟩
abbrev S64x768 : Shape := ⟨2, ![64, 768]⟩
abbrev S4x4096x64 : Shape := ⟨3, ![4, 4096, 64]⟩
abbrev S1x1024x768 : Shape := ⟨3, ![1, 1024, 768]⟩
abbrev S1x1024x64 : Shape := ⟨3, ![1, 1024, 64]⟩
abbrev S1024x768 : Shape := ⟨2, ![1024, 768]⟩
abbrev S768x64 : Shape := ⟨2, ![768, 64]⟩
abbrev S1024x64 : Shape := ⟨2, ![1024, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 19
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S4x4096x64, .bf16⟩
  | .hbm, ⟨5, _⟩ => ⟨S4x4096x64, .bf16⟩
  | .hbm, ⟨6, _⟩ => ⟨S4x4096x64, .bf16⟩
  | .hbm, ⟨7, _⟩ => ⟨S4x4096x64, .f32⟩
  | .local _ .vmem, ⟨0, _⟩ => ⟨S1x1024x768, .f32⟩
  | .local _ .vmem, ⟨1, _⟩ => ⟨S1x1024x768, .f32⟩
  | .local _ .vmem, ⟨2, _⟩ => ⟨S64x768, .f32⟩
  | .local _ .vmem, ⟨3, _⟩ => ⟨S64x768, .f32⟩
  | .local _ .vmem, ⟨4, _⟩ => ⟨S64x768, .f32⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x4096x64, .bf16⟩
  | .local _ .vmem, ⟨16, _⟩ => ⟨S1x4096x64, .bf16⟩
  | .local _ .vmem, ⟨17, _⟩ => ⟨S1x512x64, .f32⟩
  | .local _ .vmem, ⟨18, _⟩ => ⟨S1x512x64, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S64x768_S64x768_0_0 : ∀ a, (![0, 0] : Fin 2 → Nat) a + S64x768.size a ≤ S64x768.size a
  h_S64x768 : 0 < S64x768.numel
  transposes_S64x768_p1_0_S768x64 : S64x768.Transposes [1, 0] S768x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S512x4096_S512 : S512x4096.Reduces [1] S512
  shapeCasts_S512_S512x1 : S512.ShapeCasts S512x1
  broadcasts_S512x1_S512x4096 : S512x1.Broadcasts S512x4096
  shapeCasts_S512x64_S1x512x64 : S512x64.ShapeCasts S1x512x64
  dot_S1024x768_S768x64_S1024x64_1_0_0_1_n_n_wf : DotDims.WF S1024x768 S768x64 S1024x64 [1] [0] [0] [1] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x4096x768.size a
  hwx0_0 : ∀ i : grid0.Coords, EltTy.bits .f32 = 32 ∨ (Rect.block (s := S4x4096x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x768.size a ≤ S64x768.size a
  hwx0_3 : ∀ i : grid0.Coords, EltTy.bits .f32 = 32 ∨ (Rect.block (s := S64x768) S64x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x4096x64.size a
  hwx0_5 : ∀ i : grid0.Coords, EltTy.bits .bf16 = 32 ∨ (Rect.block (s := S4x4096x64) S1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x4096x64.size a
  hwx0_6 : ∀ i : grid0.Coords, EltTy.bits .bf16 = 32 ∨ (Rect.block (s := S4x4096x64) S1x1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x4096x64.size a
  hwx1_0 : ∀ i : grid1.Coords, EltTy.bits .bf16 = 32 ∨ (Rect.block (s := S4x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .bf16 = 32 ∨ (Rect.block (s := S4x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S4x4096x64.size a
  hwx1_3 : ∀ i : grid1.Coords, EltTy.bits .f32 = 32 ∨ (Rect.block (s := S4x4096x64) S1x512x64.size (cc1_transform_3 i) (hinb1_3 i)).WholeWords (EltTy.packing .f32)

variable [Facts₀]

def dot_S1024x768_S768x64_S1024x64_1_0_0_1_n_n : DotDims S1024x768 S768x64 S1024x64 where
  lhsContracting := [1]
  rhsContracting := [0]
  lhsNonContracting := [0]
  rhsNonContracting := [1]
  lhsBatch := []
  rhsBatch := []
  wf := dot_S1024x768_S768x64_S1024x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x768 : Shape := ⟨3, ![4, 4096, 768]⟩
abbrev S64x768 : Shape := ⟨2, ![64, 768]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096, .f32⟩
  | .hbm, ⟨14, _⟩ => ⟨S_, .f32⟩
  | .hbm, ⟨15, _⟩ => ⟨S4x4096, .f32⟩
  | .hbm, ⟨16, _⟩ => ⟨S4x4096, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S4x4096x64, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x768_S64x768_S4x4096x64_2_1_01_0_n_n_wf : DotDims.WF S4x4096x768 S64x768 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x768_S64x768_S4x4096x64_2_1_01_0_n_n : DotDims S4x4096x768 S64x768 S4x4096x64 where
  lhsContracting := [2]
  rhsContracting := [1]
  lhsNonContracting := [0, 1]
  rhsNonContracting := [0]
  lhsBatch := []
  rhsBatch := []
  wf := dot_S4x4096x768_S64x768_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KernelRun.lean ====
/-
  The idealized kernel's run with its result named.

  The program is two kernel launches in a row: the first writes the three projections, the second reads them and writes the
  result. After the second launch every buffer the thread still holds is at the contents the two launches' write-backs
  leave, folded from the launch memory; the result buffer is among them, so the run ends with the result at that fold's
  value there, and with the four arguments as launched.
-/
import proofs.«122628_j79869211836706_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding what the second
    launch's write-backs leave there and the four arguments what they held at launch. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The fold's value at the result buffer is what the second launch's write-backs leave of its output window's array. -/
theorem W2_result (c : Dev nD) :
    W2 m ρ c (Proc.devRef .tc main_v1) = (dat1 (V1 m ρ) c).arrAt 3 cfg1.N := W2_arr m ρ c 3

/-- The second launch finds in its three input arrays what the first launch's write-backs leave of its three output
    windows' arrays. -/
theorem V1_q (c : Dev nD) : V1 m ρ c main_v0_0 = (dat0 (V0 m ρ) c).arrAt 4 cfg0.N := W1_arr m ρ c 4
theorem V1_k (c : Dev nD) : V1 m ρ c main_v0_1 = (dat0 (V0 m ρ) c).arrAt 5 cfg0.N := W1_arr m ρ c 5
theorem V1_v (c : Dev nD) : V1 m ρ c main_v0_2 = (dat0 (V0 m ρ) c).arrAt 6 cfg0.N := W1_arr m ρ c 6

end Cert.KernelIdeal.RunValue

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.ProjBody.lean ====
/-
  What the first kernel's body computes from its blocks, entry by entry.

  The body multiplies its `[1024, 768]` block of activations with each `[64, 768]` weight matrix transposed, into a zero
  accumulator, so the entry at row `r`, column `o` is `∑ d, x(r, d) · w(o, d)`; the query product is then scaled by `0.125`.
  The changes of float format and the unit leading axis of the blocks do not change an entry.
-/
import proofs.«122628_j79869211836706_2_alg».proof.Proof.Gen.KernelIdeal.Skeleton
import proofs.«122628_j79869211836706_2_alg».proof.Proof.LibMatDot
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Cert.Lib
open Idealize.ShloMosaic Idealize.ShloMosaic.ValueIdx
open scoped BigOperators

/-- The printed dimension numbers of the projection are those of a plain product of rows with columns. -/
theorem dot_proj_eq :
    dot_S1024x768_S768x64_S1024x64_1_0_0_1_n_n = matDot dot_S1024x768_S768x64_S1024x64_1_0_0_1_n_n_wf := rfl

/-- The left operand of the three products: the activations block as a matrix. -/
theorem lhs_at (x0 : Vec Ideal S1x1024x768 .f32) (r : Fin 1024) (d : Fin 768) :
    k0_pay1 x0 (ix2 r d) = x0 (ix3 (0 : Fin 1) r d) := by
  unfold k0_pay1
  exact (truncf_apply (ψ := .bf16) _ bitsLt_bf16_f32 _).trans (shapeCast_1ab_ab_apply x0 _ r d)

/-- The block's product with a transposed weight matrix at `(r, o)`. -/
theorem projBlock_at (x0 : Vec Ideal S1x1024x768 .f32) (w : Vec Ideal S64x768 .f32) (r : Fin 1024) (o : Fin 64) :
    matmul dot_S1024x768_S768x64_S1024x64_1_0_0_1_n_n none (k0_pay1 x0)
      (transpose S768x64 [1, 0] (truncf .bf16 w bitsLt_bf16_f32) transposes_S64x768_p1_0_S768x64)
      (constant S1024x64 .f32 0x00000000#32) (ix2 r o)
    = ∑ d : Fin 768, x0 (ix3 (0 : Fin 1) r d) * w (ix2 o d) := by
  rw [dot_proj_eq]
  refine (matmul_plain_zero_apply _ none _ _ r o).trans ?_
  refine Finset.sum_congr rfl fun d _ => ?_
  rw [lhs_at, transpose_ix2_apply, truncf_apply]

/-- The query block the body stores: the product scaled by `0.125`. -/
theorem pay2_at (x0 : Vec Ideal S1x1024x768 .f32) (w : Vec Ideal S64x768 .f32) (u : Fin 1) (r : Fin 1024) (o : Fin 64) :
    k0_pay2 x0 w (ix3 u r o)
      = (∑ d : Fin 768, x0 (ix3 (0 : Fin 1) r d) * w (ix2 o d)) * Ideal.ofBits .f32 0x3E000000#32 := by
  unfold k0_pay2
  refine (shapeCast_ab_1ab_apply _ _ u r o).trans ?_
  refine (truncf_apply (ψ := .bf16) _ bitsLt_bf16_f32 _).trans ?_
  refine (mulf_apply _ _ _).trans ?_
  exact congrArg (· * Ideal.ofBits .f32 0x3E000000#32) (projBlock_at x0 w r o)

/-- The key block the body stores: the product. -/
theorem pay3_at (x0 : Vec Ideal S1x1024x768 .f32) (w : Vec Ideal S64x768 .f32) (u : Fin 1) (r : Fin 1024) (o : Fin 64) :
    k0_pay3 x0 w (ix3 u r o) = ∑ d : Fin 768, x0 (ix3 (0 : Fin 1) r d) * w (ix2 o d) := by
  unfold k0_pay3
  refine (shapeCast_ab_1ab_apply _ _ u r o).trans ?_
  refine (truncf_apply (ψ := .bf16) _ bitsLt_bf16_f32 _).trans ?_
  exact projBlock_at x0 w r o

/-- The value block the body stores: the product. -/
theorem pay4_at (x0 : Vec Ideal S1x1024x768 .f32) (w : Vec Ideal S64x768 .f32) (u : Fin 1) (r : Fin 1024) (o : Fin 64) :
    k0_pay4 x0 w (ix3 u r o) = ∑ d : Fin 768, x0 (ix3 (0 : Fin 1) r d) * w (ix2 o d) := by
  unfold k0_pay4
  refine (shapeCast_ab_1ab_apply _ _ u r o).trans ?_
  refine (truncf_apply (ψ := .bf16) _ bitsLt_bf16_f32 _).trans ?_
  exact projBlock_at x0 w r o

end Cert.KernelIdeal.Body

end
-- ==== Proof.Consts.lean ====
/-
  The float constants the two programs spell, as the extended reals their patterns denote: the softmax scale
  0.125 = 1/8 the kernel multiplies the queries by, the 64 under the reference's square root (whose root is 8, so that
  the reference's quotient by it is the product with 1/8), and the -inf the row maxima start from (the lattice's
  bottom).
-/
import Idealize.ShloMosaic.PureOps.Ideal
import Idealize.ShloMosaic.PureOps.Ideal.Laws

noncomputable section

namespace Cert.Attn.Consts

open Idealize.ShloMosaic

/-- The pattern of `64.0` denotes the real 64. -/
theorem ofBits_sixtyfour : Ideal.ofBits .f32 0x42800000#32 = ((64 : ℝ) : EReal) := by
  simp [Ideal.ofBits, Ideal.ieee, -EReal.coe_mul]; norm_num

/-- The pattern of `0.125` denotes the real 1/8. -/
theorem ofBits_eighth : Ideal.ofBits .f32 0x3E000000#32 = ((1 / 8 : ℝ) : EReal) := by
  simp [Ideal.ofBits, Ideal.ieee, -EReal.coe_mul]; norm_num

/-- The pattern of `-inf` denotes the bottom of the extended reals. -/
theorem ofBits_neg_inf : Ideal.ofBits .f32 0xFF800000#32 = (⊥ : EReal) := by
  simp [Ideal.ofBits, Ideal.ieee]

/-- The square root of 64 is 8. -/
theorem sqrt_sixtyfour : Ideal.sqrt ((64 : ℝ) : EReal) = ((8 : ℝ) : EReal) := by
  rw [Ideal.sqrt_coe, if_neg (by norm_num)]
  rw [show (64 : ℝ) = 8 ^ 2 by norm_num, Real.sqrt_sq (by norm_num)]

end Cert.Attn.Consts

end
-- ==== Proof.Spec.lean ====
/-
  Single-head attention over the extended reals, index by index: what both programs compute.

  With `Q = x·Wqᵀ`, `K = x·Wkᵀ`, `V = x·Wvᵀ` (each `[4, 4096, 64]`, a sum over the 768 input features), the result at
  batch `b`, query row `q`, output column `o` is the softmax of row `q` of the scores against column `o` of `V`:
  `∑ₖ softmax(s(b, q, ·))ₖ · V(b, k, o)`, the softmax taken as `exp(sₖ - max s) / ∑ⱼ exp(sⱼ - max s)`, the maximum folded
  from `-inf`. The two programs differ in the scores only: one scales the queries by `1/8` before the product with the
  keys, `∑ₒ (Q(b, q, o) · 1/8) · K(b, k, o)`; the other divides the product by `√64`, `(∑ₒ Q(b, q, o) · K(b, k, o)) / √64`.
  These are equal on all extended reals: `√64 = 8`, a quotient by `8` is the product with `1/8`, and a nonnegative
  real factor distributes over a sum of extended reals whatever infinities the sum holds.
-/
import Idealize.ShloMosaic.PureOps.Ideal
import Idealize.ShloMosaic.PureOps.Ideal.Laws
import Idealize.ShloMosaic.Lib.ValueIdx
import proofs.«122628_j79869211836706_2_alg».proof.Proof.Consts

noncomputable section

namespace Cert.Attn

open Idealize.ShloMosaic Idealize.ShloMosaic.ValueIdx
open scoped BigOperators

/-- The activations `[4, 4096, 768]`, a weight matrix `[64, 768]` and a projection or the result `[4, 4096, 64]`. -/
abbrev SX : Shape := ⟨3, ![4, 4096, 768]⟩
abbrev SW : Shape := ⟨2, ![64, 768]⟩
abbrev SO : Shape := ⟨3, ![4, 4096, 64]⟩

/-- The projection `x·wᵀ` at batch `b`, row `s`, column `o`: the sum over the input features. -/
def proj (x : SX.Idx → EReal) (w : SW.Idx → EReal) (b : Fin 4) (s : Fin 4096) (o : Fin 64) : EReal :=
  ∑ d : Fin 768, x (ix3 b s d) * w (ix2 o d)

/-- A row's maximum, folded from `-inf`. -/
def rowMax (s : Fin 4096 → EReal) : EReal :=
  (Finset.univ : Finset (Fin 4096)).fold max (Ideal.ofBits .f32 0xFF800000#32) s

/-- The maximum of `-inf` and a row's maximum is the row's maximum: the fold starts from `-inf`. -/
theorem max_init_rowMax (s : Fin 4096 → EReal) : max (Ideal.ofBits .f32 0xFF800000#32) (rowMax s) = rowMax s :=
  max_eq_right ((Finset.le_fold_max _).mpr (Or.inl le_rfl))

/-- Entry `k` of the softmax of a row of scores. -/
def softmaxRow (s : Fin 4096 → EReal) (k : Fin 4096) : EReal :=
  Ideal.div (Ideal.exp (s k - rowMax s)) (∑ j : Fin 4096, Ideal.exp (s j - rowMax s))

/-- The softmax of a row of scores against a column of values. -/
def attnRow (s v : Fin 4096 → EReal) : EReal := ∑ k : Fin 4096, softmaxRow s k * v k

/-- The score of query row `q` against key row `k`, the queries scaled by `1/8` first. -/
def scoreScaled (x : SX.Idx → EReal) (wq wk : SW.Idx → EReal) (b : Fin 4) (q k : Fin 4096) : EReal :=
  ∑ o : Fin 64, (proj x wq b q o * Ideal.ofBits .f32 0x3E000000#32) * proj x wk b k o

/-- The same score with the product divided by `√64` afterwards. -/
def scoreDivided (x : SX.Idx → EReal) (wq wk : SW.Idx → EReal) (b : Fin 4) (q k : Fin 4096) : EReal :=
  Ideal.div (∑ o : Fin 64, proj x wq b q o * proj x wk b k o) (Ideal.sqrt (Ideal.ofBits .f32 0x42800000#32))

/-- A nonnegative real factor inside each term of a sum of products of extended reals comes out of the sum, whatever
    infinities the terms hold. -/
theorem sum_scaled_mul {n : ℕ} (a b : Fin n → EReal) {c : ℝ} (hc : 0 ≤ c) :
    ∑ o : Fin n, (a o * (c : EReal)) * b o = (∑ o : Fin n, a o * b o) * (c : EReal) := by
  have h : ∀ s : Finset (Fin n), ∑ o ∈ s, (a o * (c : EReal)) * b o = (∑ o ∈ s, a o * b o) * (c : EReal) := by
    intro s
    refine Finset.induction_on s ?_ ?_
    · simp
    · intro i s hi ih
      rw [Finset.sum_insert hi, Finset.sum_insert hi, ih,
        EReal.right_distrib_of_nonneg_of_ne_top (by exact_mod_cast hc) (EReal.coe_ne_top c), mul_right_comm]
  exact h Finset.univ

/-- Scaling the queries by `1/8` before the product with the keys, or dividing the product by `√64`: one score. -/
theorem scoreScaled_eq_scoreDivided (x : SX.Idx → EReal) (wq wk : SW.Idx → EReal) (b : Fin 4) (q k : Fin 4096) :
    scoreScaled x wq wk b q k = scoreDivided x wq wk b q k := by
  unfold scoreScaled scoreDivided
  rw [Consts.ofBits_eighth, Consts.ofBits_sixtyfour, Consts.sqrt_sixtyfour, Ideal.div_coe (by norm_num : (8 : ℝ) ≠ 0),
    sum_scaled_mul _ _ (by norm_num : (0 : ℝ) ≤ 1 / 8)]

/-- The attention result as one function of the four argument arrays. -/
def out (x : SX.Idx → EReal) (wq wk wv : SW.Idx → EReal) : SO.Idx → EReal := fun i =>
  attnRow (fun k => scoreScaled x wq wk (i 0) (i 1) k) (fun k => proj x wv (i 0) k (i 2))

theorem out_apply (x : SX.Idx → EReal) (wq wk wv : SW.Idx → EReal) (b : Fin 4) (q : Fin 4096) (o : Fin 64) :
    out x wq wk wv (ix3 b q o) = attnRow (fun k => scoreScaled x wq wk b q k) (fun k => proj x wv b k o) := rfl

/-! ## The same in two steps: the three projections as arrays, then attention over arrays -/

/-- The projection `x·wᵀ` as an array. -/
def projArr (x : SX.Idx → EReal) (w : SW.Idx → EReal) : SO.Idx → EReal := fun i => proj x w (i 0) (i 1) (i 2)

/-- The projection scaled by `1/8`, as an array: the queries as the first step leaves them. -/
def scaledProjArr (x : SX.Idx → EReal) (w : SW.Idx → EReal) : SO.Idx → EReal :=
  fun i => proj x w (i 0) (i 1) (i 2) * Ideal.ofBits .f32 0x3E000000#32

/-- Attention over given query, key and value arrays: at `(b, q, o)` the softmax of the row of products of query row `q`
    with every key row, against column `o` of the values. -/
def attnOf (Q K V : SO.Idx → EReal) : SO.Idx → EReal := fun i =>
  attnRow (fun k => ∑ o : Fin 64, Q (ix3 (i 0) (i 1) o) * K (ix3 (i 0) k o)) (fun k => V (ix3 (i 0) k (i 2)))

/-- Attention over the scaled queries and the plain keys and values is the result. -/
theorem attnOf_proj (x : SX.Idx → EReal) (wq wk wv : SW.Idx → EReal) :
    attnOf (scaledProjArr x wq) (projArr x wk) (projArr x wv) = out x wq wk wv := rfl

end Cert.Attn

end
-- ==== Proof.Region0.lean ====
/-
  The first launch's three output arrays as whole-array functions of its input arrays.

  The grid is `4 × 4`: point `(b, i)` reads rows `1024·i … 1024·i + 1023` of batch `b` of the activations and all of each
  weight matrix, and writes the same rows of batch `b` of the three projections. A block's coordinate along an axis is the
  block index times the block's extent plus the coordinate inside the block, so what point `(b, i)` writes back is the
  block at `(b, i)` of the projection of the whole arrays; the sixteen blocks tile each `[4, 4096, 64]` output, so the
  arrays end holding the projections everywhere.
-/
import proofs.«122628_j79869211836706_2_alg».proof.Proof.Gen.KernelIdeal.Frame
import proofs.«122628_j79869211836706_2_alg».proof.Proof.ProjBody
import proofs.«122628_j79869211836706_2_alg».proof.Proof.Spec
import Idealize.ShloMosaic.Lib.Pipeline.Value

set_option maxRecDepth 16384

noncomputable section

namespace Cert.KernelIdeal.Region0

open Cert.KernelIdeal Cert.KernelIdeal.Gen Cert.KernelIdeal.Body Cert.Attn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the sixteen grid points: the activations' block moves with each output's, along
    the batch and the row axes; the weights' block and every last-axis block index stay at zero; the batch and row block
    indices stay below four. -/
theorem idx_in : ∀ t : Fin cfg0.N,
    win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## Output window 4 -/

theorem idx_out4 : ∀ t : Fin cfg0.N,
    win0_0.index t (0 : Fin 3) = win0_4.index t (0 : Fin 3) ∧ win0_0.index t (1 : Fin 3) = win0_4.index t (1 : Fin 3)
    ∧ win0_4.index t (2 : Fin 3) = 0 ∧ win0_4.index t (0 : Fin 3) ≤ 3 ∧ win0_4.index t (1 : Fin 3) ≤ 3 :=
  (by decide +kernel : ∀ t : Fin grid0.N, _)

/-- Every block of the output is some point's. -/
theorem idx_onto4 : ∀ (q0 : Fin 4) (q1 : Fin 4), ∃ t : Fin cfg0.N, win0_4.index t = ![q0.val, q1.val, 0] :=
  (by decide +kernel : ∀ (q0 : Fin 4) (q1 : Fin 4), ∃ t : Fin grid0.N, win0_4.index t = ![q0.val, q1.val, 0])

/-- What point `t` writes back is block `t` of the projection of the arrays the launch finds. -/
theorem flushed4_eq (c : Dev nD) (t : Fin cfg0.N) :
    (dat0 V c).flushed 4 t = ((cfg0.win 4).blk t).view.read (Elt Ideal) (scaledProjArr (V c main_arg0) (V c main_arg1)) := by
  show (cfg0.win 4).cut (grid0.coords t) ((dat0 V c).after 4 t) = _
  rw [after0_4]
  unfold out0_4
  rw [View.canon_unit_zero hz3]
  simp only [View.ld_unit_zero (S := S1x1024x768) hz3, View.ld_unit_zero (S := S64x768) hz2]
  obtain ⟨e2, f10, f11, f20, f21, f30, f31⟩ := idx_in t
  obtain ⟨e0, e1, g2, -, -⟩ := idx_out4 t
  funext j
  obtain ⟨u, r, o, rfl⟩ : ∃ (u : Fin 1) (r : Fin 1024) (o : Fin 64), j = ix3 u r o := ⟨j 0, j 1, j 2, eq_ix3 j⟩
  refine (pay2_at (iblk0 V c 0 t) (iblk0 V c 1 t) u r o).trans ?_
  show _ = scaledProjArr (V c main_arg0) (V c main_arg1) (((cfg0.win 4).blk t).view.emb (ix3 u r o))
  unfold scaledProjArr proj
  have hu : u.val = 0 := by omega
  have hx : ∀ d : Fin 768, ((cfg0.win 0).blk t).view.emb (ix3 (0 : Fin 1) r d)
      = ix3 ((((cfg0.win 4).blk t).view.emb (ix3 u r o)) 0) ((((cfg0.win 4).blk t).view.emb (ix3 u r o)) 1) d := by
    intro d
    funext a; apply Fin.ext
    match a with
    | ⟨0, _⟩ => show win0_0.index t (0 : Fin 3) * 1 + 1 * 0 = win0_4.index t (0 : Fin 3) * 1 + 1 * u.val; omega
    | ⟨1, _⟩ => show win0_0.index t (1 : Fin 3) * 1024 + 1 * r.val = win0_4.index t (1 : Fin 3) * 1024 + 1 * r.val; omega
    | ⟨2, _⟩ => show win0_0.index t (2 : Fin 3) * 768 + 1 * d.val = d.val; omega
  have hw : ∀ d : Fin 768, ((cfg0.win 1).blk t).view.emb (ix2 o d) = ix2 ((((cfg0.win 4).blk t).view.emb (ix3 u r o)) 2) d := by
    intro d
    funext a; apply Fin.ext
    match a with
    | ⟨0, _⟩ => show win0_1.index t (0 : Fin 2) * 64 + 1 * o.val = win0_4.index t (2 : Fin 3) * 64 + 1 * o.val; omega
    | ⟨1, _⟩ => show win0_1.index t (1 : Fin 2) * 768 + 1 * d.val = d.val; omega
  have hsum : ∀ d : Fin 768,
      (fun a b : EReal => a * b) (iblk0 V c 0 t (ix3 (0 : Fin 1) r d)) (iblk0 V c 1 t (ix2 o d))
        = (fun a b : EReal => a * b)
            (V c main_arg0 (ix3 ((((cfg0.win 4).blk t).view.emb (ix3 u r o)) 0) ((((cfg0.win 4).blk t).view.emb (ix3 u r o)) 1) d))
            (V c main_arg1 (ix2 ((((cfg0.win 4).blk t).view.emb (ix3 u r o)) 2) d)) :=
    fun d => congrArg₂ (fun a b : EReal => a * b) (congrArg (V c main_arg0) (hx d)) (congrArg (V c main_arg1) (hw d))
  exact congrArg (· * Ideal.ofBits .f32 0x3E000000#32) (Finset.sum_congr rfl fun d _ => hsum d)

/-- An index of the array is in point `t`'s block iff each coordinate is in the block's range on its axis. -/
theorem mem_blk4 (t : Fin cfg0.N) (i : S4x4096x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v0_0).slice (win0_4.rect t)).set ↔ _
  rw [View.set_slice_whole, Rect.mem_set_unit]
  exact Iff.rfl

/-- Every index of the array is in some point's block. -/
theorem cover4 (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  obtain ⟨t, ht⟩ := idx_onto4 ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- The array after the launch: the projection of the arrays the launch finds. -/
theorem final4 (c : Dev nD) : (dat0 V c).arrAt 4 cfg0.N = scaledProjArr (V c main_arg0) (V c main_arg1) :=
  (dat0 V c).arrAt_eq_of_cover 4 _ (fun t _ => flushed4_eq V c t) cover4

/-! ## Output window 5 -/

theorem idx_out5 : ∀ t : Fin cfg0.N,
    win0_0.index t (0 : Fin 3) = win0_5.index t (0 : Fin 3) ∧ win0_0.index t (1 : Fin 3) = win0_5.index t (1 : Fin 3)
    ∧ win0_5.index t (2 : Fin 3) = 0 ∧ win0_5.index t (0 : Fin 3) ≤ 3 ∧ win0_5.index t (1 : Fin 3) ≤ 3 :=
  (by decide +kernel : ∀ t : Fin grid0.N, _)

/-- Every block of the output is some point's. -/
theorem idx_onto5 : ∀ (q0 : Fin 4) (q1 : Fin 4), ∃ t : Fin cfg0.N, win0_5.index t = ![q0.val, q1.val, 0] :=
  (by decide +kernel : ∀ (q0 : Fin 4) (q1 : Fin 4), ∃ t : Fin grid0.N, win0_5.index t = ![q0.val, q1.val, 0])

/-- What point `t` writes back is block `t` of the projection of the arrays the launch finds. -/
theorem flushed5_eq (c : Dev nD) (t : Fin cfg0.N) :
    (dat0 V c).flushed 5 t = ((cfg0.win 5).blk t).view.read (Elt Ideal) (projArr (V c main_arg0) (V c main_arg2)) := by
  show (cfg0.win 5).cut (grid0.coords t) ((dat0 V c).after 5 t) = _
  rw [after0_5]
  unfold out0_5
  rw [View.canon_unit_zero hz3]
  simp only [View.ld_unit_zero (S := S1x1024x768) hz3, View.ld_unit_zero (S := S64x768) hz2]
  obtain ⟨e2, f10, f11, f20, f21, f30, f31⟩ := idx_in t
  obtain ⟨e0, e1, g2, -, -⟩ := idx_out5 t
  funext j
  obtain ⟨u, r, o, rfl⟩ : ∃ (u : Fin 1) (r : Fin 1024) (o : Fin 64), j = ix3 u r o := ⟨j 0, j 1, j 2, eq_ix3 j⟩
  refine (pay3_at (iblk0 V c 0 t) (iblk0 V c 2 t) u r o).trans ?_
  show _ = projArr (V c main_arg0) (V c main_arg2) (((cfg0.win 5).blk t).view.emb (ix3 u r o))
  unfold projArr proj
  have hu : u.val = 0 := by omega
  have hx : ∀ d : Fin 768, ((cfg0.win 0).blk t).view.emb (ix3 (0 : Fin 1) r d)
      = ix3 ((((cfg0.win 5).blk t).view.emb (ix3 u r o)) 0) ((((cfg0.win 5).blk t).view.emb (ix3 u r o)) 1) d := by
    intro d
    funext a; apply Fin.ext
    match a with
    | ⟨0, _⟩ => show win0_0.index t (0 : Fin 3) * 1 + 1 * 0 = win0_5.index t (0 : Fin 3) * 1 + 1 * u.val; omega
    | ⟨1, _⟩ => show win0_0.index t (1 : Fin 3) * 1024 + 1 * r.val = win0_5.index t (1 : Fin 3) * 1024 + 1 * r.val; omega
    | ⟨2, _⟩ => show win0_0.index t (2 : Fin 3) * 768 + 1 * d.val = d.val; omega
  have hw : ∀ d : Fin 768, ((cfg0.win 2).blk t).view.emb (ix2 o d) = ix2 ((((cfg0.win 5).blk t).view.emb (ix3 u r o)) 2) d := by
    intro d
    funext a; apply Fin.ext
    match a with
    | ⟨0, _⟩ => show win0_2.index t (0 : Fin 2) * 64 + 1 * o.val = win0_5.index t (2 : Fin 3) * 64 + 1 * o.val; omega
    | ⟨1, _⟩ => show win0_2.index t (1 : Fin 2) * 768 + 1 * d.val = d.val; omega
  have hsum : ∀ d : Fin 768,
      (fun a b : EReal => a * b) (iblk0 V c 0 t (ix3 (0 : Fin 1) r d)) (iblk0 V c 2 t (ix2 o d))
        = (fun a b : EReal => a * b)
            (V c main_arg0 (ix3 ((((cfg0.win 5).blk t).view.emb (ix3 u r o)) 0) ((((cfg0.win 5).blk t).view.emb (ix3 u r o)) 1) d))
            (V c main_arg2 (ix2 ((((cfg0.win 5).blk t).view.emb (ix3 u r o)) 2) d)) :=
    fun d => congrArg₂ (fun a b : EReal => a * b) (congrArg (V c main_arg0) (hx d)) (congrArg (V c main_arg2) (hw d))
  exact Finset.sum_congr rfl fun d _ => hsum d

/-- An index of the array is in point `t`'s block iff each coordinate is in the block's range on its axis. -/
theorem mem_blk5 (t : Fin cfg0.N) (i : S4x4096x64.Idx) :
    i ∈ ((cfg0.win 5).blk t).view.set ↔ ∀ a : Fin 3, win0_5.index t a * S1x1024x64.size a ≤ (i a).val ∧ (i a).val < win0_5.index t a * S1x1024x64.size a + S1x1024x64.size a := by
  show i ∈ ((View.whole main_v0_1).slice (win0_5.rect t)).set ↔ _
  rw [View.set_slice_whole, Rect.mem_set_unit]
  exact Iff.rfl

/-- Every index of the array is in some point's block. -/
theorem cover5 (i : S4x4096x64.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  obtain ⟨t, ht⟩ := idx_onto5 ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-- The array after the launch: the projection of the arrays the launch finds. -/
theorem final5 (c : Dev nD) : (dat0 V c).arrAt 5 cfg0.N = projArr (V c main_arg0) (V c main_arg2) :=
  (dat0 V c).arrAt_eq_of_cover 5 _ (fun t _ => flushed5_eq V c t) cover5

/-! ## Output window 6 -/

theorem idx_out6 : ∀ t : Fin cfg0.N,
    win0_0.index t (0 : Fin 3) = win0_6.index t (0 : Fin 3) ∧ win0_0.index t (1 : Fin 3) = win0_6.index t (1 : Fin 3)
    ∧ win0_6.index t (2 : Fin 3) = 0 ∧ win0_6.index t (0 : Fin 3) ≤ 3 ∧ win0_6.index t (1 : Fin 3) ≤ 3 :=
  (by decide +kernel : ∀ t : Fin grid0.N, _)

/-- Every block of the output is some point's. -/
theorem idx_onto6 : ∀ (q0 : Fin 4) (q1 : Fin 4), ∃ t : Fin cfg0.N, win0_6.index t = ![q0.val, q1.val, 0] :=
  (by decide +kernel : ∀ (q0 : Fin 4) (q1 : Fin 4), ∃ t : Fin grid0.N, win0_6.index t = ![q0.val, q1.val, 0])

/-- What point `t` writes back is block `t` of the projection of the arrays the launch finds. -/
theorem flushed6_eq (c : Dev nD) (t : Fin cfg0.N) :
    (dat0 V c).flushed 6 t = ((cfg0.win 6).blk t).view.read (Elt Ideal) (projArr (V c main_arg0) (V c main_arg3)) := by
  show (cfg0.win 6).cut (grid0.coords t) ((dat0 V c).after 6 t) = _
  rw [after0_6]
  unfold out0_6
  rw [View.canon_unit_zero hz3]
  simp only [View.ld_unit_zero (S := S1x1024x768) hz3, View.ld_unit_zero (S := S64x768) hz2]
  obtain ⟨e2, f10, f11, f20, f21, f30, f31⟩ := idx_in t
  obtain ⟨e0, e1, g2, -, -⟩ := idx_out6 t
  funext j
  obtain ⟨u, r, o, rfl⟩ : ∃ (u : Fin 1) (r : Fin 1024) (o : Fin 64), j = ix3 u r o := ⟨j 0, j 1, j 2, eq_ix3 j⟩
  refine (pay4_at (iblk0 V c 0 t) (iblk0 V c 3 t) u r o).trans ?_
  show _ = projArr (V c main_arg0) (V c main_arg3) (((cfg0.win 6).blk t).view.emb (ix3 u r o))
  unfold projArr proj
  have hu : u.val = 0 := by omega
  have hx : ∀ d : Fin 768, ((cfg0.win 0).blk t).view.emb (ix3 (0 : Fin 1) r d)
      = ix3 ((((cfg0.win 6).blk t).view.emb (ix3 u r o)) 0) ((((cfg0.win 6).blk t).view.emb (ix3 u r o)) 1) d := by
    intro d
    funext a; apply Fin.ext
    match a with
    | ⟨0, _⟩ => show win0_0.index t (0 : Fin 3) * 1 + 1 * 0 = win0_6.index t (0 : Fin 3) * 1 + 1 * u.val; omega
    | ⟨1, _⟩ => show win0_0.index t (1 : Fin 3) * 1024 + 1 * r.val = win0_6.index t (1 : Fin 3) * 1024 + 1 * r.val; omega
    | ⟨2, _⟩ => show win0_0.index t (2 : Fin 3) * 768 + 1 * d.val = d.val; omega
  have hw : ∀ d : Fin 768, ((cfg0.win 3).blk t).view.emb (ix2 o d) = ix2 ((((cfg0.win 6).blk t).view.emb (ix3 u r o)) 2) d := by
    intro d
    funext a; apply Fin.ext
    match a with
    | ⟨0, _⟩ => show win0_3.index t (0 : Fin 2) * 64 + 1 * o.val = win0_6.index t (2 : Fin 3) * 64 + 1 * o.val; omega
    | ⟨1, _⟩ => show win0_3.index t (1 : Fin 2) * 768 + 1 * d.val = d.val; omega
  have hsum : ∀ d : Fin 768,
      (fun a b : EReal => a * b) (iblk0 V c 0 t (ix3 (0 : Fin 1) r d)) (iblk0 V c 3 t (ix2 o d))
        = (fun a b : EReal => a * b)
            (V c main_arg0 (ix3 ((((cfg0.win 6).blk t).view.emb (ix3 u r o)) 0) ((((cfg0.win 6).blk t).view.emb (ix3 u r o)) 1) d))
            (V c main_arg3 (ix2 ((((cfg0.win 6).blk t).view.emb (ix3 u r o)) 2) d)) :=
    fun d => congrArg₂ (fun a b : EReal => a * b) (congrArg (V c main_arg0) (hx d)) (congrArg (V c main_arg3) (hw d))
  exact Finset.sum_congr rfl fun d _ => hsum d

/-- An index of the array is in point `t`'s block iff each coordinate is in the block's range on its axis. -/
theorem mem_blk6 (t : Fin cfg0.N) (i : S4x4096x64.Idx) :
    i ∈ ((cfg0.win 6).blk t).view.set ↔ ∀ a : Fin 3, win0_6.index t a * S1x1024x64.size a ≤ (i a).val ∧ (i a).val < win0_6.index t a * S1x1024x64.size a + S1x1024x64.size a := by
  show i ∈ ((View.whole main_v0_2).slice (win0_6.rect t)).set ↔ _
  rw [View.set_slice_whole, Rect.mem_set_unit]
  exact Iff.rfl

/-- Every index of the array is in some point's block. -/
theorem cover6 (i : S4x4096x64.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  obtain ⟨t, ht⟩ := idx_onto6 ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 64 ≤ (i 2).val ∧ (i 2).val < win0_6.index t (2 : Fin 3) * 64 + 64; omega

/-- The array after the launch: the projection of the arrays the launch finds. -/
theorem final6 (c : Dev nD) : (dat0 V c).arrAt 6 cfg0.N = projArr (V c main_arg0) (V c main_arg3) :=
  (dat0 V c).arrAt_eq_of_cover 6 _ (fun t _ => flushed6_eq V c t) cover6

end Cert.KernelIdeal.Region0

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.AttnBody.lean ====
/-
  What the second kernel's body computes from its blocks, entry by entry.

  From a `[512, 64]` block of queries and the `[4096, 64]` keys and values of the same batch the body forms the scores
  `s(r, j) = ∑ o, q(r, o) · k(j, o)` (rows against rows, into a zero accumulator), takes each row's softmax — the row's maximum
  folded from `-inf`, `exp` of the differences, their sum, the quotient — and multiplies the result with the values, so the
  entry at row `r`, column `o` is `∑ j, softmax(s(r, ·))ⱼ · v(j, o)`. The changes of float format, the unit leading axis of
  the blocks and the column layout of the row statistics do not change an entry.
-/
import proofs.«122628_j79869211836706_2_alg».proof.Proof.Gen.KernelIdeal.Skeleton
import proofs.«122628_j79869211836706_2_alg».proof.Proof.LibMatDot
import proofs.«122628_j79869211836706_2_alg».proof.Proof.LibRowsDot
import proofs.«122628_j79869211836706_2_alg».proof.Proof.LibColumn
import proofs.«122628_j79869211836706_2_alg».proof.Proof.Spec
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Cert.Lib Cert.Attn
open Idealize.ShloMosaic Idealize.ShloMosaic.ValueIdx
open scoped BigOperators

/-- The printed dimension numbers of the scores are those of a product of rows with rows, -/
theorem dot_qk_eq :
    dot_S512x64_S4096x64_S512x4096_1_1_0_0_n_n = rowsDot dot_S512x64_S4096x64_S512x4096_1_1_0_0_n_n_wf := rfl

/-- and those of the product with the values are those of a plain product. -/
theorem dot_pv_eq :
    dot_S512x4096_S4096x64_S512x64_1_0_0_1_n_n = matDot dot_S512x4096_S4096x64_S512x64_1_0_0_1_n_n_wf := rfl

/-- A row index with the column `k` put back is `(r, k)`. -/
theorem lift_row (r : Fin 512) (k : Fin (S512x4096.size 1)) :
    reduces_S512x4096_S512.lift (ix1 r) k = ix2 r (⟨k.val, k.isLt⟩ : Fin 4096) := by
  funext c; apply Fin.ext
  fin_cases c <;> rfl

/-- The reduction by `max` along the rows of a `[512, 4096]` matrix, at row `r`, is that row's maximum from `-inf`. -/
theorem rowMax_at (S : FVec Ideal S512x4096 .f32) (r : Fin 512) :
    multiReduction .maximumf [1] S512 S 0xFF800000#32 reduces_S512x4096_S512 (.inl rfl) rfl (ix1 r)
      = rowMax (fun k => S (ix2 r k)) := by
  refine (Ideal.multiReduction_maximumf_single S _ reduces_S512x4096_S512 _ _ (ix1 r)).trans ?_
  have hf : (S ∘ reduces_S512x4096_S512.lift (ix1 r)) = fun k : Fin 4096 => S (ix2 r k) :=
    funext fun k => congrArg S (lift_row r k)
  exact congrArg (fun f => Finset.fold max (Ideal.ofBits .f32 0xFF800000#32) f (Finset.univ : Finset (Fin 4096))) hf

/-- The reduction by `+` along the rows, at row `r`, is that row's sum. -/
theorem rowSum_at (E : FVec Ideal S512x4096 .f32) (r : Fin 512) :
    multiReduction .add [1] S512 E 0x00000000#32 reduces_S512x4096_S512 (.inl rfl) rfl (ix1 r)
      = ∑ k : Fin 4096, E (ix2 r k) := by
  refine (Ideal.multiReduction_add_single E _ reduces_S512x4096_S512 _ _ (ix1 r)).trans ?_
  exact Finset.sum_congr rfl fun k _ => congrArg E (lift_row r k)

/-- A vector of row statistics laid out as a column and broadcast over the columns reads, at `(r, k)`, entry `r`. -/
theorem colBroadcast_at (v : FVec Ideal S512 .f32) (r : Fin 512) (k : Fin 4096) :
    broadcastTo S512x4096 (shapeCast S512x1 v shapeCasts_S512_S512x1) broadcasts_S512x1_S512x4096 (ix2 r k) = v (ix1 r) :=
  (broadcastTo_a1_ab_apply _ _ r k).trans (shapeCast_a_a1_apply v _ r 0)

/-- `exp` of a matrix less its rows' maxima. -/
def expShift (S : FVec Ideal S512x4096 .f32) : FVec Ideal S512x4096 .f32 :=
  exp (subf S (broadcastTo S512x4096 (shapeCast S512x1
    (multiReduction .maximumf [1] S512 S 0xFF800000#32 reduces_S512x4096_S512 (.inl rfl) rfl) shapeCasts_S512_S512x1)
    broadcasts_S512x1_S512x4096))

/-- The softmax of every row of a matrix. -/
def softmaxMat (S : FVec Ideal S512x4096 .f32) : FVec Ideal S512x4096 .f32 :=
  divf (expShift S) (broadcastTo S512x4096 (shapeCast S512x1
    (multiReduction .add [1] S512 (expShift S) 0x00000000#32 reduces_S512x4096_S512 (.inl rfl) rfl) shapeCasts_S512_S512x1)
    broadcasts_S512x1_S512x4096)

theorem expShift_at (S : FVec Ideal S512x4096 .f32) (r : Fin 512) (k : Fin 4096) :
    expShift S (ix2 r k) = Ideal.exp (S (ix2 r k) - rowMax (fun j => S (ix2 r j))) := by
  unfold expShift
  refine congrArg Ideal.exp ?_
  refine congrArg (S (ix2 r k) - ·) ?_
  exact (colBroadcast_at _ r k).trans (rowMax_at S r)

theorem softmaxMat_at (S : FVec Ideal S512x4096 .f32) (r : Fin 512) (k : Fin 4096) :
    softmaxMat S (ix2 r k) = softmaxRow (fun j => S (ix2 r j)) k := by
  unfold softmaxMat softmaxRow
  refine (divf_apply _ _ _).trans ?_
  rw [colBroadcast_at, rowSum_at, expShift_at]
  refine congrArg (Ideal.div _) ?_
  exact Finset.sum_congr rfl fun j _ => expShift_at S r j

/-- The scores of a block of queries against the keys, as the body forms them. -/
def scoresMat (q : Vec Ideal S1x512x64 .bf16) (k : Vec Ideal S1x4096x64 .bf16) : FVec Ideal S512x4096 .f32 :=
  matmul dot_S512x64_S4096x64_S512x4096_1_1_0_0_n_n none
    (shapeCast S512x64 q shapeCasts_S1x512x64_S512x64 : FVec Ideal S512x64 .bf16)
    (shapeCast S4096x64 k shapeCasts_S1x4096x64_S4096x64 : FVec Ideal S4096x64 .bf16) (constant S512x4096 .f32 0x00000000#32)

theorem scoresMat_at (q : Vec Ideal S1x512x64 .bf16) (k : Vec Ideal S1x4096x64 .bf16) (r : Fin 512) (j : Fin 4096) :
    scoresMat q k (ix2 r j) = ∑ o : Fin 64, q (ix3 (0 : Fin 1) r o) * k (ix3 (0 : Fin 1) j o) := by
  unfold scoresMat
  rw [dot_qk_eq]
  refine (matmul_rows_zero_apply _ none _ _ r j).trans ?_
  refine Finset.sum_congr rfl fun o _ => ?_
  rw [shapeCast_1ab_ab_apply, shapeCast_1ab_ab_apply]

/-- The body's stored block is the softmax of the scores times the values. -/
theorem pay1_eq (q : Vec Ideal S1x512x64 .bf16) (k v : Vec Ideal S1x4096x64 .bf16) :
    k1_pay1 q k v = shapeCast S1x512x64
      (matmul dot_S512x4096_S4096x64_S512x64_1_0_0_1_n_n none
        (truncf .bf16 (softmaxMat (scoresMat q k)) bitsLt_bf16_f32 : FVec Ideal S512x4096 .bf16)
        (shapeCast S4096x64 v shapeCasts_S1x4096x64_S4096x64 : FVec Ideal S4096x64 .bf16) (constant S512x64 .f32 0x00000000#32))
      shapeCasts_S512x64_S1x512x64 := rfl

/-- The block the body stores, at row `r`, column `o`: the softmax of the row's scores against the column of values. -/
theorem pay1_at (q : Vec Ideal S1x512x64 .bf16) (k v : Vec Ideal S1x4096x64 .bf16) (u : Fin 1) (r : Fin 512) (o : Fin 64) :
    k1_pay1 q k v (ix3 u r o)
      = attnRow (fun j => ∑ o' : Fin 64, q (ix3 (0 : Fin 1) r o') * k (ix3 (0 : Fin 1) j o'))
          (fun j => v (ix3 (0 : Fin 1) j o)) := by
  rw [pay1_eq]
  refine (shapeCast_ab_1ab_apply _ _ u r o).trans ?_
  rw [dot_pv_eq]
  refine (matmul_plain_zero_apply _ none _ _ r o).trans ?_
  unfold attnRow
  have hs : (fun j => scoresMat q k (ix2 r j)) = fun j => ∑ o' : Fin 64, q (ix3 (0 : Fin 1) r o') * k (ix3 (0 : Fin 1) j o') :=
    funext fun j => scoresMat_at q k r j
  refine Finset.sum_congr rfl fun j _ => ?_
  rw [truncf_apply, softmaxMat_at, shapeCast_1ab_ab_apply, hs]

end Cert.KernelIdeal.Body

end
-- ==== Proof.Region1.lean ====
/-
  The second launch's output array as a whole-array function of its input arrays.

  The grid is `4 × 8`: point `(b, i)` reads query rows `512·i … 512·i + 511` of batch `b` and all keys and values of batch
  `b`, and writes the same rows of batch `b` of the result. A block's coordinate along an axis is the block index times the
  block's extent plus the coordinate inside the block, so what point `(b, i)` writes back is the block at `(b, i)` of the
  attention over the whole arrays; the thirty-two blocks tile the `[4, 4096, 64]` result, so the array ends holding the
  attention everywhere.
-/
import proofs.«122628_j79869211836706_2_alg».proof.Proof.Gen.KernelIdeal.Frame
import proofs.«122628_j79869211836706_2_alg».proof.Proof.AttnBody
import proofs.«122628_j79869211836706_2_alg».proof.Proof.Spec
import Idealize.ShloMosaic.Lib.Pipeline.Value

set_option maxRecDepth 16384

noncomputable section

namespace Cert.KernelIdeal.Region1

open Cert.KernelIdeal Cert.KernelIdeal.Gen Cert.KernelIdeal.Body Cert.Attn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps, decided over the thirty-two grid points: every input's block is in the output block's batch;
    the queries' block moves with the output's along the rows; the keys' and values' blocks stay at row block zero; every
    last-axis block index is zero. -/
theorem idx_in : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (2 : Fin 3) = 0 :=
  (by decide +kernel : ∀ t : Fin grid1.N, _)

/-- Every block of the output is some point's. -/
theorem idx_onto : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- What point `t` writes back is block `t` of the attention over the arrays the launch finds. -/
theorem flushed3_eq (c : Dev nD) (t : Fin cfg1.N) :
    (dat1 V c).flushed 3 t
      = ((cfg1.win 3).blk t).view.read (Elt Ideal) (attnOf (V c main_v0_0) (V c main_v0_1) (V c main_v0_2)) := by
  show (cfg1.win 3).cut (grid1.coords t) ((dat1 V c).after 3 t) = _
  rw [after1_3]
  unfold out1_3
  rw [View.canon_unit_zero hz3]
  simp only [View.ld_unit_zero (S := S1x512x64) hz3, View.ld_unit_zero (S := S1x4096x64) hz3]
  obtain ⟨q0, q1, q2, k0, k1, k2, v0, v1, v2, o2⟩ := idx_in t
  funext j
  obtain ⟨u, r, o, rfl⟩ : ∃ (u : Fin 1) (r : Fin 512) (o : Fin 64), j = ix3 u r o := ⟨j 0, j 1, j 2, eq_ix3 j⟩
  refine (pay1_at (iblk1 V c 0 t) (iblk1 V c 1 t) (iblk1 V c 2 t) u r o).trans ?_
  show _ = attnOf (V c main_v0_0) (V c main_v0_1) (V c main_v0_2) (((cfg1.win 3).blk t).view.emb (ix3 u r o))
  unfold attnOf
  have hu : u.val = 0 := by omega
  have hq : ∀ o' : Fin 64, ((cfg1.win 0).blk t).view.emb (ix3 (0 : Fin 1) r o')
      = ix3 ((((cfg1.win 3).blk t).view.emb (ix3 u r o)) 0) ((((cfg1.win 3).blk t).view.emb (ix3 u r o)) 1) o' := by
    intro o'
    funext a; apply Fin.ext
    match a with
    | ⟨0, _⟩ => show win1_0.index t (0 : Fin 3) * 1 + 1 * 0 = win1_3.index t (0 : Fin 3) * 1 + 1 * u.val; omega
    | ⟨1, _⟩ => show win1_0.index t (1 : Fin 3) * 512 + 1 * r.val = win1_3.index t (1 : Fin 3) * 512 + 1 * r.val; omega
    | ⟨2, _⟩ => show win1_0.index t (2 : Fin 3) * 64 + 1 * o'.val = o'.val; omega
  have hk : ∀ (k : Fin 4096) (o' : Fin 64), ((cfg1.win 1).blk t).view.emb (ix3 (0 : Fin 1) k o')
      = ix3 ((((cfg1.win 3).blk t).view.emb (ix3 u r o)) 0) k o' := by
    intro k o'
    funext a; apply Fin.ext
    match a with
    | ⟨0, _⟩ => show win1_1.index t (0 : Fin 3) * 1 + 1 * 0 = win1_3.index t (0 : Fin 3) * 1 + 1 * u.val; omega
    | ⟨1, _⟩ => show win1_1.index t (1 : Fin 3) * 4096 + 1 * k.val = k.val; omega
    | ⟨2, _⟩ => show win1_1.index t (2 : Fin 3) * 64 + 1 * o'.val = o'.val; omega
  have hv : ∀ k : Fin 4096, ((cfg1.win 2).blk t).view.emb (ix3 (0 : Fin 1) k o)
      = ix3 ((((cfg1.win 3).blk t).view.emb (ix3 u r o)) 0) k ((((cfg1.win 3).blk t).view.emb (ix3 u r o)) 2) := by
    intro k
    funext a; apply Fin.ext
    match a with
    | ⟨0, _⟩ => show win1_2.index t (0 : Fin 3) * 1 + 1 * 0 = win1_3.index t (0 : Fin 3) * 1 + 1 * u.val; omega
    | ⟨1, _⟩ => show win1_2.index t (1 : Fin 3) * 4096 + 1 * k.val = k.val; omega
    | ⟨2, _⟩ => show win1_2.index t (2 : Fin 3) * 64 + 1 * o.val = win1_3.index t (2 : Fin 3) * 64 + 1 * o.val; omega
  exact congrArg₂ attnRow
    (funext fun k => Finset.sum_congr rfl fun o' _ =>
      congrArg₂ (fun a b : EReal => a * b) (congrArg (V c main_v0_0) (hq o')) (congrArg (V c main_v0_1) (hk k o')))
    (funext fun k => congrArg (V c main_v0_2) (hv k))

/-- An index of the array is in point `t`'s block iff each coordinate is in the block's range on its axis. -/
theorem mem_blk3 (t : Fin cfg1.N) (i : S4x4096x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v1).slice (win1_3.rect t)).set ↔ _
  rw [View.set_slice_whole, Rect.mem_set_unit]
  exact Iff.rfl

/-- Every index of the array is in some point's block. -/
theorem cover3 (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The array after the launch: the attention over the arrays the launch finds. -/
theorem final3 (c : Dev nD) : (dat1 V c).arrAt 3 cfg1.N = attnOf (V c main_v0_0) (V c main_v0_1) (V c main_v0_2) :=
  (dat1 V c).arrAt_eq_of_cover 3 _ (fun t _ => flushed3_eq V c t) cover3

end Cert.KernelIdeal.Region1

end
-- ==== Proof.KernelValue.lean ====
/-
  The idealized kernel's result is the attention of the specification.

  The second launch leaves in the result the attention over the three arrays it finds; those are what the first launch
  leaves: the queries' projection scaled by `1/8` and the plain projections of keys and values, of the argument arrays
  as launched. Attention over those three is the specification's result.
-/
import proofs.«122628_j79869211836706_2_alg».proof.Proof.KernelRun
import proofs.«122628_j79869211836706_2_alg».proof.Proof.Region0
import proofs.«122628_j79869211836706_2_alg».proof.Proof.Region1
import proofs.«122628_j79869211836706_2_alg».proof.Proof.Spec

set_option maxRecDepth 16384

noncomputable section

namespace Cert.KernelIdeal.RunValue

open Cert.KernelIdeal Cert.KernelIdeal.Gen Cert.Attn
open Idealize.ShloMosaic Idealize.ShloMosaic.TcCoe Idealize.SL.Sem

variable (m : (ℓ : Loc nD τ sig) → Buf (Elt Ideal) ℓ) (ρ : Dev nD → PrngReg)

/-- What the two launches leave in the result buffer, as a function of the argument arrays as launched. -/
theorem result_eq (c : Dev nD) :
    W2 m ρ c (Proc.devRef .tc main_v1)
      = out (m ((c.tc : Thread nD τ).loc main_arg0)) (m ((c.tc : Thread nD τ).loc main_arg1))
          (m ((c.tc : Thread nD τ).loc main_arg2)) (m ((c.tc : Thread nD τ).loc main_arg3)) := by
  refine (W2_result m ρ c).trans ?_
  refine (Region1.final3 (V1 m ρ) c).trans ?_
  rw [V1_q, V1_k, V1_v, Region0.final4, Region0.final5, Region0.final6]
  exact attnOf_proj _ _ _ _

/-- The run with the result at the specification's attention of the arguments, the arguments unchanged. -/
theorem run_out : θ_run defs (onTc (τ := τ) (main (F := Ideal))) ⟨m, fun _ => 0, ρ⟩ (fun r => ∀ c : Dev nD,
      r.2.mem ((c.tc : Thread nD τ).loc main_v1)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run m ρ)

end Cert.KernelIdeal.RunValue

end
-- ==== Proof.RefValue.lean ====
/-
  The reference's result, stage by stage, is the attention of the specification.

  Read at an index, the reference forms the three projections as sums over the 768 input features, the scores as the sum
  over the 64 projected features divided by `√64`, each row's maximum as a fold from `-inf` (taken once more against
  `-inf`, which changes nothing), `exp` of the differences, their row sums from zero, the quotients, and the product
  with the values as a sum over the 4096 keys. The scores so divided are the scores with the queries scaled by `1/8`.
-/
import proofs.«122628_j79869211836706_2_alg».proof.Proof.Gen.ReferenceIdeal.Read
import proofs.«122628_j79869211836706_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Attn
open Idealize.ShloMosaic Idealize.ShloMosaic.ValueIdx
open scoped BigOperators

variable (x : (⟨S4x4096x768, .f32⟩ : BufTy).Contents (Elt Ideal)) (wq wk wv : (⟨S64x768, .f32⟩ : BufTy).Contents (Elt Ideal))

/-- The query projection at `(b, s, o)`. -/
theorem v0_at (b : Fin 4) (s : Fin 4096) (o : Fin 64) : val_main_v0 (F := Ideal) x wq (ix3 b s o) = proj x wq b s o := by
  rw [val_main_v0_apply]
  unfold proj
  refine Finset.sum_congr rfl fun d _ => ?_
  have el : lidx_main_v0 (ix3 b s o) d = ix3 b s d :=
    funext fun a => Fin.ext (by match a with | ⟨0, _⟩ => rfl | ⟨1, _⟩ => rfl | ⟨2, _⟩ => rfl)
  have er : ridx_main_v0 (ix3 b s o) d = ix2 o d :=
    funext fun a => Fin.ext (by match a with | ⟨0, _⟩ => rfl | ⟨1, _⟩ => rfl)
  rw [el, er]

/-- The key projection at `(b, s, o)`. -/
theorem v1_at (b : Fin 4) (s : Fin 4096) (o : Fin 64) : val_main_v1 (F := Ideal) x wk (ix3 b s o) = proj x wk b s o := by
  rw [val_main_v1_apply]
  unfold proj
  refine Finset.sum_congr rfl fun d _ => ?_
  have el : lidx_main_v1 (ix3 b s o) d = ix3 b s d :=
    funext fun a => Fin.ext (by match a with | ⟨0, _⟩ => rfl | ⟨1, _⟩ => rfl | ⟨2, _⟩ => rfl)
  have er : ridx_main_v1 (ix3 b s o) d = ix2 o d :=
    funext fun a => Fin.ext (by match a with | ⟨0, _⟩ => rfl | ⟨1, _⟩ => rfl)
  rw [el, er]

/-- The value projection at `(b, s, o)`. -/
theorem v2_at (b : Fin 4) (s : Fin 4096) (o : Fin 64) : val_main_v2 (F := Ideal) x wv (ix3 b s o) = proj x wv b s o := by
  rw [val_main_v2_apply]
  unfold proj
  refine Finset.sum_congr rfl fun d _ => ?_
  have el : lidx_main_v2 (ix3 b s o) d = ix3 b s d :=
    funext fun a => Fin.ext (by match a with | ⟨0, _⟩ => rfl | ⟨1, _⟩ => rfl | ⟨2, _⟩ => rfl)
  have er : ridx_main_v2 (ix3 b s o) d = ix2 o d :=
    funext fun a => Fin.ext (by match a with | ⟨0, _⟩ => rfl | ⟨1, _⟩ => rfl)
  rw [el, er]

/-- The product of query row `q` with key row `k`. -/
theorem v3_at (b : Fin 4) (q k : Fin 4096) :
    val_main_v3 (F := Ideal) x wq wk (ix3 b q k) = ∑ o : Fin 64, proj x wq b q o * proj x wk b k o := by
  rw [val_main_v3_apply]
  refine Finset.sum_congr rfl fun o _ => ?_
  have el : lidx_main_v3 (ix3 b q k) o = ix3 b q o :=
    funext fun a => Fin.ext (by match a with | ⟨0, _⟩ => rfl | ⟨1, _⟩ => rfl | ⟨2, _⟩ => rfl)
  have er : ridx_main_v3 (ix3 b q k) o = ix3 b k o :=
    funext fun a => Fin.ext (by match a with | ⟨0, _⟩ => rfl | ⟨1, _⟩ => rfl | ⟨2, _⟩ => rfl)
  rw [el, er, v0_at, v1_at]

/-- The score: that product divided by `√64`. -/
theorem v6_at (b : Fin 4) (q k : Fin 4096) :
    val_main_v6 (F := Ideal) x wq wk (ix3 b q k) = scoreDivided x wq wk b q k := by
  rw [val_main_v6_apply, v3_at, val_main_v5_apply, val_main_v4_apply, val_main_cst_apply]
  rfl

/-- A `(b, q)` index with the key `k` put back is `(b, q, k)`. -/
theorem lift_bq (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  fin_cases c <;> rfl

/-- The row maximum of the scores, from `-inf`. -/
theorem v7_at (b : Fin 4) (q : Fin 4096) :
    val_main_v7 (F := Ideal) x wq wk (ix2 b q) = rowMax (fun k => scoreDivided x wq wk b q k) := by
  unfold val_main_v7
  have h : S4x4096x4096.Reduces [2] S4x4096 := by decide
  rw [Host.reduce_eq_fold_single FloatOps.maximumf _ _ reducesTo_S4x4096x4096_S4x4096_d2 h h_S_ (ix2 b q)]
  have hf : (val_main_v6 (F := Ideal) x wq wk ∘ h.lift (ix2 b q)) = fun k : Fin 4096 => scoreDivided x wq wk b q k :=
    funext fun k => (congrArg (val_main_v6 (F := Ideal) x wq wk) (lift_bq h b q k)).trans (v6_at x wq wk b q _)
  exact congrArg (fun f => Finset.fold max (Ideal.ofBits .f32 0xFF800000#32) f (Finset.univ : Finset (Fin 4096))) hf

/-- The maximum taken once more against `-inf` is the row maximum. -/
theorem v9_at (b : Fin 4) (q : Fin 4096) :
    val_main_v9 (F := Ideal) x wq wk (ix2 b q) = rowMax (fun k => scoreDivided x wq wk b q k) := by
  rw [val_main_v9_apply, val_main_v8_apply, val_main_cst_1_apply, v7_at]
  exact max_init_rowMax _

/-- Broadcast back over the keys. -/
theorem v11_at (b : Fin 4) (q k : Fin 4096) :
    val_main_v11 (F := Ideal) x wq wk (ix3 b q k) = rowMax (fun j => scoreDivided x wq wk b q j) := by
  rw [val_main_v11_apply, val_main_v10_apply]
  have e : idx_main_v10 (idx_main_v11 (ix3 b q k)) = ix2 b q :=
    funext fun a => Fin.ext (by match a with | ⟨0, _⟩ => rfl | ⟨1, _⟩ => rfl)
  rw [e, v9_at]

/-- `exp` of a score less its row's maximum. -/
theorem v13_at (b : Fin 4) (q k : Fin 4096) :
    val_main_v13 (F := Ideal) x wq wk (ix3 b q k)
      = Ideal.exp (scoreDivided x wq wk b q k - rowMax (fun j => scoreDivided x wq wk b q j)) := by
  rw [val_main_v13_apply, val_main_v12_apply, v6_at, v11_at]
  rfl

/-- The row sum of those, from zero. -/
theorem v14_at (b : Fin 4) (q : Fin 4096) :
    val_main_v14 (F := Ideal) x wq wk (ix2 b q)
      = ∑ k : Fin 4096, Ideal.exp (scoreDivided x wq wk b q k - rowMax (fun j => scoreDivided x wq wk b q j)) := by
  rw [val_main_v14_apply, val_main_cst_2_apply]
  show Ideal.ofBits .f32 0x00000000#32 + _ = _
  rw [Ideal.ofBits_zero_f32, zero_add]
  refine Finset.sum_congr rfl fun k _ => ?_
  have e : idx_main_v14 (ix2 b q) k = ix3 b q k :=
    funext fun a => Fin.ext (by match a with | ⟨0, _⟩ => rfl | ⟨1, _⟩ => rfl | ⟨2, _⟩ => rfl)
  rw [e, v13_at]

/-- Broadcast back over the keys. -/
theorem v16_at (b : Fin 4) (q k : Fin 4096) :
    val_main_v16 (F := Ideal) x wq wk (ix3 b q k)
      = ∑ j : Fin 4096, Ideal.exp (scoreDivided x wq wk b q j - rowMax (fun j' => scoreDivided x wq wk b q j')) := by
  rw [val_main_v16_apply, val_main_v15_apply]
  have e : idx_main_v15 (idx_main_v16 (ix3 b q k)) = ix2 b q :=
    funext fun a => Fin.ext (by match a with | ⟨0, _⟩ => rfl | ⟨1, _⟩ => rfl)
  rw [e, v14_at]

/-- The softmax weights. -/
theorem v17_at (b : Fin 4) (q k : Fin 4096) :
    val_main_v17 (F := Ideal) x wq wk (ix3 b q k) = softmaxRow (fun j => scoreDivided x wq wk b q j) k := by
  rw [val_main_v17_apply, v13_at, v16_at]
  rfl

/-- The result at `(b, q, o)`. -/
theorem v18_at (b : Fin 4) (q : Fin 4096) (o : Fin 64) :
    val_main_v18 (F := Ideal) x wq wk wv (ix3 b q o)
      = attnRow (fun k => scoreDivided x wq wk b q k) (fun k => proj x wv b k o) := by
  rw [val_main_v18_apply]
  unfold attnRow
  refine Finset.sum_congr rfl fun k _ => ?_
  have el : lidx_main_v18 (ix3 b q o) k = ix3 b q k :=
    funext fun a => Fin.ext (by match a with | ⟨0, _⟩ => rfl | ⟨1, _⟩ => rfl | ⟨2, _⟩ => rfl)
  have er : ridx_main_v18 (ix3 b q o) k = ix3 b k o :=
    funext fun a => Fin.ext (by match a with | ⟨0, _⟩ => rfl | ⟨1, _⟩ => rfl | ⟨2, _⟩ => rfl)
  rw [el, er, v17_at, v2_at]

/-- The reference's result is the specification's attention of the four argument arrays. -/
theorem result_eq : val_main_v18 (F := Ideal) x wq wk wv = out x wq wk wv := by
  funext i
  obtain ⟨b, q, o, rfl⟩ : ∃ (b : Fin 4) (q : Fin 4096) (o : Fin 64), i = ix3 b q o := ⟨i 0, i 1, i 2, eq_ix3 i⟩
  rw [v18_at, out_apply]
  exact congrArg (fun s => attnRow s fun k => proj x wv b k o)
    (funext fun k => (scoreScaled_eq_scoreDivided x wq wk b q k).symm)

end Cert.ReferenceIdeal.RefValue

end
-- ==== Proof.lean ====
/-
  Single-head attention in two kernel launches against its plain reference, over the extended reals.

  The kernel first projects the activations to queries, keys and values (`x·Wᵀ`, a sum over the 768 input features),
  scaling the queries by `1/8`, then for each block of 512 query rows forms the scores against all 4096 keys, takes each
  row's softmax (maximum from `-inf`, `exp` of the differences, their sum, the quotient) and multiplies with the values.
  The reference does the same on whole arrays but divides the unscaled scores by `√64` instead. With floats read as
  extended reals and every operation exact, the two results are one function of the four arguments, index by index
  (Proof/Spec.lean): `√64 = 8`, the quotient by `8` is the product with `1/8`, and that nonnegative real factor moves out
  of the sum over the 64 projected features whatever infinities its terms hold; every later step is the same function
  of the scores on both sides. No finiteness of the inputs is used.

  The kernel side: each launch's output arrays as whole-array functions of its input arrays (Proof/Region0.lean,
  Proof/Region1.lean, over the bodies' arithmetic read at an index in Proof/ProjBody.lean and Proof/AttnBody.lean), chained
  through the program's run (Proof/KernelRun.lean, Proof/KernelValue.lean). The reference side: its run read one operation at
  a time (Proof/RefValue.lean). The idealization rewrote nothing, so the kernel and its idealization are one text.
-/
import proofs.«122628_j79869211836706_2_alg».proof.Defs
import proofs.«122628_j79869211836706_2_alg».proof.Proof.Gen.Kernel
import proofs.«122628_j79869211836706_2_alg».proof.Proof.Gen.Kernel.Skeleton
import proofs.«122628_j79869211836706_2_alg».proof.Proof.Gen.Kernel.Launch
import proofs.«122628_j79869211836706_2_alg».proof.Proof.Gen.Kernel.Points
import proofs.«122628_j79869211836706_2_alg».proof.Proof.Gen.Kernel.Frame
import proofs.«122628_j79869211836706_2_alg».proof.Proof.Gen.KernelIdeal
import proofs.«122628_j79869211836706_2_alg».proof.Proof.Gen.KernelIdeal.Skeleton
import proofs.«122628_j79869211836706_2_alg».proof.Proof.Gen.KernelIdeal.Launch
import proofs.«122628_j79869211836706_2_alg».proof.Proof.Gen.KernelIdeal.Points
import proofs.«122628_j79869211836706_2_alg».proof.Proof.Gen.KernelIdeal.Frame
import proofs.«122628_j79869211836706_2_alg».proof.Proof.Gen.ReferenceIdeal
import proofs.«122628_j79869211836706_2_alg».proof.Proof.Gen.Pre_finite_inputs
import proofs.«122628_j79869211836706_2_alg».proof.Proof.Gen.ReferenceIdeal.Run
import proofs.«122628_j79869211836706_2_alg».proof.Proof.Gen.ReferenceIdeal.Read
import proofs.«122628_j79869211836706_2_alg».proof.Proof.KernelValue
import proofs.«122628_j79869211836706_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the attention of the arguments in their results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.RunValue.run_out m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _).trans ?_
  rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
